-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64x64 : Shape := ⟨3, ![8192, 64, 64]⟩
abbrev S_ : Shape := ⟨0, ![]⟩

class Facts : Prop where
  bcast_S_S8192x64x64 : S_.BroadcastsInDim S8192x64x64 (![] : Fin 0 → Fin S8192x64x64.rank)
  reducesTo_S8192x64x64_S_d0_1_2 : S8192x64x64.ReducesTo [0, 1, 2] S_
  h_S_ : 0 < S_.numel

variable [Facts]

def fn {F : FTy → Type} [FloatOps F] (main_arg0 : FVec F S8192x64x64 .f32) : IVec S_ 1 :=
  let main_v0 : FVec F S8192x64x64 .f32 := Host.absf main_arg0
  let main_cst : FVec F S_ .f32 := constant S_ .f32 0x7F800000#32
  let main_v1 : FVec F S8192x64x64 .f32 := broadcastInDim S8192x64x64 ![] bcast_S_S8192x64x64 main_cst
  let main_v2 : IVec S8192x64x64 1 := cmpf .olt main_v0 main_v1
  let main_c : IVec S_ 1 := constantI S_ 1 1#1
  let main_v3 : IVec S_ 1 := (fun x v => Host.reduce IntOp.andi x v reducesTo_S8192x64x64_S_d0_1_2 h_S_) main_v2 main_c
  main_v3
-- ==== Kernel.lean ====
abbrev S8192x64x64 : Shape := ⟨3, ![8192, 64, 64]⟩
abbrev S128x64x64 : Shape := ⟨3, ![128, 64, 64]⟩

abbrev nBuf : Space → Nat
  | .hbm => 2
  | .vmem => 4
  | .smem => 0
  | _ => 0

abbrev bufTy : (tb : Table) → Fin (tcTables nBuf tb) → BufTy
  | .hbm, ⟨0, _⟩ => ⟨S8192x64x64, .f32⟩
  | .hbm, ⟨1, _⟩ => ⟨S8192x64x64, .f32⟩
  | .local _ .vmem, ⟨0, _⟩ => ⟨S128x64x64, .f32⟩
  | .local _ .vmem, ⟨1, _⟩ => ⟨S128x64x64, .f32⟩
  | .local _ .vmem, ⟨2, _⟩ => ⟨S128x64x64, .f32⟩
  | .local _ .vmem, ⟨3, _⟩ => ⟨S128x64x64, .f32⟩
  | _, _ => ⟨S8192x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S128x64x64_S128x64x64_0_0_0 : ∀ a, (![0, 0, 0] : Fin 3 → Nat) a + S128x64x64.size a ≤ S128x64x64.size a
  h_S128x64x64 : 0 < S128x64x64.numel
  dot_S128x64x64_S128x64x64_S128x64x64_1_1_2_2_0_0_wf : DotDims.WF S128x64x64 S128x64x64 S128x64x64 [1] [1] [2] [2] [0] [0]
  dot_S128x64x64_S128x64x64_S128x64x64_2_1_1_2_0_0_wf : DotDims.WF S128x64x64 S128x64x64 S128x64x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x64.size a ≤ S8192x64x64.size a
  hwx0_0 : ∀ i : grid0.Coords, EltTy.bits .f32 = 32 ∨ (Rect.block (s := S8192x64x64) S128x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x64.size a ≤ S8192x64x64.size a
  hwx0_1 : ∀ i : grid0.Coords, EltTy.bits .f32 = 32 ∨ (Rect.block (s := S8192x64x64) S128x64x64.size (cc0_transform_1 i) (hinb0_1 i)).WholeWords (EltTy.packing .f32)

variable [Facts₀]

def dot_S128x64x64_S128x64x64_S128x64x64_1_1_2_2_0_0 : DotDims S128x64x64 S128x64x64 S128x64x64 where
  lhsContracting := [1]
  rhsContracting := [1]
  lhsNonContracting := [2]
  rhsNonContracting := [2]
  lhsBatch := [0]
  rhsBatch := [0]
  wf := dot_S128x64x64_S128x64x64_S128x64x64_1_1_2_2_0_0_wf
def dot_S128x64x64_S128x64x64_S128x64x64_2_1_1_2_0_0 : DotDims S128x64x64 S128x64x64 S128x64x64 where
  lhsContracting := [2]
  rhsContracting := [1]
  lhsNonContracting := [1]
  rhsNonContracting := [2]
  lhsBatch := [0]
  rhsBatch := [0]
  wf := dot_S128x64x64_S128x64x64_S128x64x64_2_1_1_2_0_0_wf

abbrev win0_0 : Pipeline.Window sig grid0 :=
  Pipeline.Window.ofSpec (Memref.whole main_arg0) S128x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x64x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x64x64 : Shape := ⟨3, ![8192, 64, 64]⟩
abbrev S_ : Shape := ⟨0, ![]⟩

abbrev nBuf : Space → Nat
  | .hbm => 131
  | .vmem => 0
  | .smem => 0
  | _ => 0

abbrev hbmTy0_0 (i : Nat) : BufTy := match i % 128 with
  | 0 => ⟨S8192x64x64, .f32⟩
  | 1 => ⟨S8192x64x64, .f32⟩
  | 2 => ⟨S8192x64x64, .f32⟩
  | 3 => ⟨S_, .f32⟩
  | 4 => ⟨S8192x64x64, .f32⟩
  | 5 => ⟨S8192x64x64, .f32⟩
  | 6 => ⟨S8192x64x64, .f32⟩
  | 7 => ⟨S_, .f32⟩
  | 8 => ⟨S8192x64x64, .f32⟩
  | 9 => ⟨S8192x64x64, .f32⟩
  | 10 => ⟨S8192x64x64, .f32⟩
  | 11 => ⟨S8192x64x64, .f32⟩
  | 12 => ⟨S8192x64x64, .f32⟩
  | 13 => ⟨S_, .f32⟩
  | 14 => ⟨S8192x64x64, .f32⟩
  | 15 => ⟨S8192x64x64, .f32⟩
  | 16 => ⟨S8192x64x64, .f32⟩
  | 17 => ⟨S_, .f32⟩
  | 18 => ⟨S8192x64x64, .f32⟩
  | 19 => ⟨S8192x64x64, .f32⟩
  | 20 => ⟨S8192x64x64, .f32⟩
  | 21 => ⟨S8192x64x64, .f32⟩
  | 22 => ⟨S8192x64x64, .f32⟩
  | 23 => ⟨S_, .f32⟩
  | 24 => ⟨S8192x64x64, .f32⟩
  | 25 => ⟨S8192x64x64, .f32⟩
  | 26 => ⟨S8192x64x64, .f32⟩
  | 27 => ⟨S_, .f32⟩
  | 28 => ⟨S8192x64x64, .f32⟩
  | 29 => ⟨S8192x64x64, .f32⟩
  | 30 => ⟨S8192x64x64, .f32⟩
  | 31 => ⟨S8192x64x64, .f32⟩
  | 32 => ⟨S8192x64x64, .f32⟩
  | 33 => ⟨S_, .f32⟩
  | 34 => ⟨S8192x64x64, .f32⟩
  | 35 => ⟨S8192x64x64, .f32⟩
  | 36 => ⟨S8192x64x64, .f32⟩
  | 37 => ⟨S_, .f32⟩
  | 38 => ⟨S8192x64x64, .f32⟩
  | 39 => ⟨S8192x64x64, .f32⟩
  | 40 => ⟨S8192x64x64, .f32⟩
  | 41 => ⟨S8192x64x64, .f32⟩
  | 42 => ⟨S8192x64x64, .f32⟩
  | 43 => ⟨S_, .f32⟩
  | 44 => ⟨S8192x64x64, .f32⟩
  | 45 => ⟨S8192x64x64, .f32⟩
  | 46 => ⟨S8192x64x64, .f32⟩
  | 47 => ⟨S_, .f32⟩
  | 48 => ⟨S8192x64x64, .f32⟩
  | 49 => ⟨S8192x64x64, .f32⟩
  | 50 => ⟨S8192x64x64, .f32⟩
  | 51 => ⟨S8192x64x64, .f32⟩
  | 52 => ⟨S8192x64x64, .f32⟩
  | 53 => ⟨S_, .f32⟩
  | 54 => ⟨S8192x64x64, .f32⟩
  | 55 => ⟨S8192x64x64, .f32⟩
  | 56 => ⟨S8192x64x64, .f32⟩
  | 57 => ⟨S_, .f32⟩
  | 58 => ⟨S8192x64x64, .f32⟩
  | 59 => ⟨S8192x64x64, .f32⟩
  | 60 => ⟨S8192x64x64, .f32⟩
  | 61 => ⟨S8192x64x64, .f32⟩
  | 62 => ⟨S8192x64x64, .f32⟩
  | 63 => ⟨S_, .f32⟩
  | 64 => ⟨S8192x64x64, .f32⟩
  | 65 => ⟨S8192x64x64, .f32⟩
  | 66 => ⟨S8192x64x64, .f32⟩
  | 67 => ⟨S_, .f32⟩
  | 68 => ⟨S8192x64x64, .f32⟩
  | 69 => ⟨S8192x64x64, .f32⟩
  | 70 => ⟨S8192x64x64, .f32⟩
  | 71 => ⟨S8192x64x64, .f32⟩
  | 72 => ⟨S8192x64x64, .f32⟩
  | 73 => ⟨S_, .f32⟩
  | 74 => ⟨S8192x64x64, .f32⟩
  | 75 => ⟨S8192x64x64, .f32⟩
  | 76 => ⟨S8192x64x64, .f32⟩
  | 77 => ⟨S_, .f32⟩
  | 78 => ⟨S8192x64x64, .f32⟩
  | 79 => ⟨S8192x64x64, .f32⟩
  | 80 => ⟨S8192x64x64, .f32⟩
  | 81 => ⟨S8192x64x64, .f32⟩
  | 82 => ⟨S8192x64x64, .f32⟩
  | 83 => ⟨S_, .f32⟩
  | 84 => ⟨S8192x64x64, .f32⟩
  | 85 => ⟨S8192x64x64, .f32⟩
  | 86 => ⟨S8192x64x64, .f32⟩
  | 87 => ⟨S_, .f32⟩
  | 88 => ⟨S8192x64x64, .f32⟩
  | 89 => ⟨S8192x64x64, .f32⟩
  | 90 => ⟨S8192x64x64, .f32⟩
  | 91 => ⟨S8192x64x64, .f32⟩
  | 92 => ⟨S8192x64x64, .f32⟩
  | 93 => ⟨S_, .f32⟩
  | 94 => ⟨S8192x64x64, .f32⟩
  | 95 => ⟨S8192x64x64, .f32⟩
  | 96 => ⟨S8192x64x64, .f32⟩
  | 97 => ⟨S_, .f32⟩
  | 98 => ⟨S8192x64x64, .f32⟩
  | 99 => ⟨S8192x64x64, .f32⟩
  | 100 => ⟨S8192x64x64, .f32⟩
  | 101 => ⟨S8192x64x64, .f32⟩
  | 102 => ⟨S8192x64x64, .f32⟩
  | 103 => ⟨S_, .f32⟩
  | 104 => ⟨S8192x64x64, .f32⟩
  | 105 => ⟨S8192x64x64, .f32⟩
  | 106 => ⟨S8192x64x64, .f32⟩
  | 107 => ⟨S_, .f32⟩
  | 108 => ⟨S8192x64x64, .f32⟩
  | 109 => ⟨S8192x64x64, .f32⟩
  | 110 => ⟨S8192x64x64, .f32⟩
  | 111 => ⟨S8192x64x64, .f32⟩
  | 112 => ⟨S8192x64x64, .f32⟩
  | 113 => ⟨S_, .f32⟩
  | 114 => ⟨S8192x64x64, .f32⟩
  | 115 => ⟨S8192x64x64, .f32⟩
  | 116 => ⟨S8192x64x64, .f32⟩
  | 117 => ⟨S_, .f32⟩
  | 118 => ⟨S8192x64x64, .f32⟩
  | 119 => ⟨S8192x64x64, .f32⟩
  | 120 => ⟨S8192x64x64, .f32⟩
  | 121 => ⟨S8192x64x64, .f32⟩
  | 122 => ⟨S8192x64x64, .f32⟩
  | 123 => ⟨S_, .f32⟩
  | 124 => ⟨S8192x64x64, .f32⟩
  | 125 => ⟨S8192x64x64, .f32⟩
  | 126 => ⟨S8192x64x64, .f32⟩
  | 127 => ⟨S_, .f32⟩
  | _ => ⟨S8192x64x64, .f32⟩

abbrev hbmTy0_1 (i : Nat) : BufTy := match i % 128 with
  | 0 => ⟨S8192x64x64, .f32⟩
  | 1 => ⟨S8192x64x64, .f32⟩
  | 2 => ⟨S8192x64x64, .f32⟩
  | _ => ⟨S8192x64x64, .f32⟩

abbrev hbmTy (i : Nat) : BufTy := match i / 128 with
  | 0 => hbmTy0_0 i
  | 1 => hbmTy0_1 i
  | _ => ⟨S8192x64x64, .f32⟩

abbrev bufTy : (tb : Table) → Fin (tcTables nBuf tb) → BufTy
  | .hbm, ⟨i, _⟩ => hbmTy i
  | _, _ => ⟨S8192x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_4 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_5 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_6 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_7 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_8 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_9 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_10 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_11 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_12 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_13 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_14 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_15 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_16 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_17 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_18 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_19 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_20 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_21 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_22 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_23 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_24 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩

abbrev nD : Nat := 1
abbrev τ : Topo := Topo.v7x

variable {F : FTy → Type} [FloatOps F]

class Facts₀ : Prop where
  transposes_S8192x64x64_S8192x64x64_0_2_1 : S8192x64x64.Transposes [0, 2, 1] S8192x64x64
  bcast_S_S8192x64x64 : S_.BroadcastsInDim S8192x64x64 (![] : Fin 0 → Fin S8192x64x64.rank)
  dot_S8192x64x64_S8192x64x64_S8192x64x64_2_1_1_2_0_0_wf : DotDims.WF S8192x64x64 S8192x64x64 S8192x64x64 [2] [1] [1] [2] [0] [0]

variable [Facts₀]

def dot_S8192x64x64_S8192x64x64_S8192x64x64_2_1_1_2_0_0 : DotDims S8192x64x64 S8192x64x64 S8192x64x64 where
  lhsContracting := [2]
  rhsContracting := [1]
  lhsNonContracting := [1]
  rhsNonContracting := [2]
  lhsBatch := [0]
  rhsBatch := [0]
  wf := dot_S8192x64x64_S8192x64x64_S8192x64x64_2_1_1_2_0_0_wf

class Facts : Prop extends Facts₀ where

variable [Facts]
-- ==== Proof.BjorckSpec.lean ====
/-
  The Björck orthogonalisation step, and its thirteenth iterate, as mathematics on the extended reals.

  One step sends a square matrix w to (3/2)·w − (1/2)·w·(wᵀw). Entry (i, k) of wᵀw is the sum over l of
  w(l, i)·w(l, k) — the Gram matrix of the columns —, and entry (i, k) of w·(wᵀw) is the sum over j of
  w(i, j)·(wᵀw)(j, k). The two scalars are carried as the f32 words that hold them (0x3FC00000 is 3/2,
  0x3F000000 is 1/2, both exact); nothing below needs their values, only that both programs carry the same words.

  A stack of B matrices is an array of shape [B, 64, 64]; the step acts on each matrix of the stack by itself,
  so the b-th matrix of the iterated stack is the iterate of the b-th matrix. That independence is all that is
  needed to pass between a block of the stack and the whole stack.
-/
import Idealize.ShloMosaic.PureOps.Ideal
import Idealize.ShloMosaic.Lib.ValueIdx

noncomputable section

open scoped BigOperators

namespace Cert.Bjorck

open Idealize.ShloMosaic Idealize.ShloMosaic.ValueIdx

/-- The scalar 3/2, as the f32 word both programs carry. -/
def threeHalves : EReal := Ideal.ofBits .f32 0x3FC00000#32

/-- The scalar 1/2, as the f32 word both programs carry. -/
def oneHalf : EReal := Ideal.ofBits .f32 0x3F000000#32

/-- A 64 × 64 matrix of extended reals. -/
abbrev Mat : Type := Fin 64 → Fin 64 → EReal

/-- The Gram matrix wᵀw of the columns of w: entry (j, k) is the sum over rows l of w(l, j)·w(l, k). -/
def gram (w : Mat) : Mat := fun j k => ∑ l : Fin 64, w l j * w l k

/-- w·(wᵀw): entry (i, k) is the sum over j of w(i, j)·(wᵀw)(j, k). -/
def timesGram (w : Mat) : Mat := fun i k => ∑ j : Fin 64, w i j * gram w j k

/-- One Björck step: (3/2)·w − (1/2)·w·(wᵀw), entry by entry. -/
def step (w : Mat) : Mat := fun i k => threeHalves * w i k - oneHalf * timesGram w i k

/-- The b-th matrix of a stack of B matrices. -/
def mat {B : Nat} (W : (⟨3, ![B, 64, 64]⟩ : Shape).Idx → EReal) (b : Fin B) : Mat := fun i k => W (ix3 b i k)

/-- The stack after n steps, matrix by matrix: entry (b, i, k) is entry (i, k) of the n-th iterate of matrix b. -/
def iterated {B : Nat} (n : Nat) (W : (⟨3, ![B, 64, 64]⟩ : Shape).Idx → EReal) :
    (⟨3, ![B, 64, 64]⟩ : Shape).Idx → EReal :=
  fun j => (step^[n] (mat W (j 0))) (j 1) (j 2)

theorem iterated_ix3 {B : Nat} (n : Nat) (W : (⟨3, ![B, 64, 64]⟩ : Shape).Idx → EReal) (b : Fin B) (i k : Fin 64) :
    iterated n W (ix3 b i k) = (step^[n] (mat W b)) i k := rfl

/-- An array whose b-th matrix is, for every b, one step applied to the b-th matrix of X has as its n-th iterate
    the (n+1)-st iterate of X: the step acts matrix by matrix. -/
theorem iterated_of_step {B : Nat} (n : Nat) (X Y : (⟨3, ![B, 64, 64]⟩ : Shape).Idx → EReal)
    (h : ∀ b, mat Y b = step (mat X b)) (b : Fin B) :
    step^[n] (mat Y b) = step^[n + 1] (mat X b) := by
  rw [Function.iterate_succ_apply, h b]

end Cert.Bjorck

end
-- ==== Proof.LibOneAxisDot.lean ====
/-
  A matrix product that contracts ONE axis, read at one output index, at the extended reals.

  Whatever the dimension numbers are (which axis of each operand is contracted, in which order the free axes
  appear in the result), once the contraction has a single axis of extent K the product's entry at an output
  index j is a sum over k < K of a left entry times a right entry: the left operand read at the index the
  dimension numbers assign to (j, k), the right operand likewise. The two families of operand indices are
  parameters here; each concrete product supplies them (for x · wᵀ they are (r, k) and (c, k), for x · w they
  are (r, k) and (k, c)). No finiteness is asked of any entry: only the index set of the sum is renamed.
-/
import Idealize.ShloMosaic.PureOps.Ideal.Laws
import Idealize.ShloMosaic.Lib.ValueIdx

noncomputable section

open scoped BigOperators

namespace Cert.Lib.OneAxisDot

open Idealize.ShloMosaic Idealize.ShloMosaic.ValueIdx

/-- The contraction's sum, indexed by the dimension numbers' own one-axis contraction index, is the sum over
    k < K of l(li k) · r(ri k), when li k and ri k are the operand indices at the k-th contraction index. -/
theorem contraction_sum_at {sl sr so : Shape} (d : DotDims sl sr so) (K : Nat) (hr : d.contr.rank = 1)
    (hs : d.contr.size ⟨0, by omega⟩ = K) (l : sl.Idx → EReal) (r : sr.Idx → EReal) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    ∑ q : d.contr.Idx, l (d.lhsIdx j q) * r (d.rhsIdx j q) = ∑ k : Fin K, l (li k) * r (ri k) := by
  rw [← Equiv.sum_comp (contrEquiv1 d K hr hs).symm]
  exact Finset.sum_congr rfl fun k _ => by rw [hl k, hrr k]

/-- A matrix unit's product accumulated into the zero matrix, at output index j: the zero adds nothing, and the
    rest is the contraction's sum. -/
theorem matmul_zero_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    matmul d prec l r (constant so .f32 0x00000000#32) j = ∑ k : Fin K, l (li k) * r (ri k) :=
  (Ideal.matmul_constant_zero_apply d prec l r j).trans (contraction_sum_at d K hr hs l r j li ri hl hrr)

/-- The host's dot_general at output index j: the same sum, with no accumulator. -/
theorem dotGeneral_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    Host.dotGeneral d prec l r j = ∑ k : Fin K, l (li k) * r (ri k) :=
  (Ideal.dotGeneral_apply d prec .single l r j).trans (contraction_sum_at d K hr hs l r j li ri hl hrr)

end Cert.Lib.OneAxisDot

end
-- ==== Proof.BlockStep.lean ====
/-
  The kernel body on one block of 128 matrices is thirteen Björck steps of that block.

  The body loads the block once and then repeats, thirteen times over, the same eight operations: two matrix
  products into a zero accumulator (first xᵀx, contracting the row axis of x with itself, then x·(xᵀx)), two
  scalings by the splatted constants 3/2 and 1/2, and a subtraction. Written as one function of the block,
  that is a single step; the body's value is its thirteenth iterate. Read at an index (b, i, k) of the block,
  at the extended reals, one such step is the mathematical step of matrix b at entry (i, k): each product
  contracts one axis of extent 64, and the batch axis b is carried through unchanged.
-/
import proofs.«105272_j45122926411979_2_alg».proof.Proof.Gen.KernelIdeal.Skeleton
import proofs.«105272_j45122926411979_2_alg».proof.Proof.BjorckSpec
import proofs.«105272_j45122926411979_2_alg».proof.Proof.LibOneAxisDot

noncomputable section

open scoped BigOperators

namespace Cert.KernelIdeal.BlockStep

open Cert.KernelIdeal Cert.KernelIdeal.Gen Idealize.ShloMosaic Idealize.ShloMosaic.ValueIdx Cert.Bjorck

/-! ## One step of the body, as a function of the block -/

section AnyInstance

variable {F : FTy → Type} [FloatOps F]

/-- The two products of one step: x·(xᵀx), each product accumulated into zero. -/
def blockProducts (x : FVec F S128x64x64 .f32) : FVec F S128x64x64 .f32 :=
  matmul dot_S128x64x64_S128x64x64_S128x64x64_2_1_1_2_0_0 (some .fp32) x
    (matmul dot_S128x64x64_S128x64x64_S128x64x64_1_1_2_2_0_0 (some .fp32) x x (constant S128x64x64 .f32 0x00000000#32))
    (constant S128x64x64 .f32 0x00000000#32)

/-- The affine combination that ends a step: (3/2)·x − (1/2)·p, the scalars splatted over the block. -/
def blockCombine (x p : FVec F S128x64x64 .f32) : FVec F S128x64x64 .f32 :=
  subf (mulf (broadcast S128x64x64 (Scalar.ofBits .f32 0x3FC00000#32)) x)
    (mulf (broadcast S128x64x64 (Scalar.ofBits .f32 0x3F000000#32)) p)

/-- One step of the body on a block. -/
def blockStep (x : FVec F S128x64x64 .f32) : FVec F S128x64x64 .f32 := blockCombine x (blockProducts x)

/-- The body's stored value, as the generated skeleton composes it from its three stretches of statements, is
    the thirteenth iterate of the step: the first stretch makes four steps and the products of the fifth, the
    second finishes the fifth, makes four more and the products of the tenth, the last finishes the tenth and
    makes three more. -/
theorem payload_eq_iterate (x : FVec F S128x64x64 .f32) :
    k0_pay1 (k0_pay5 (k0_pay2 x) (k0_pay3 x) (k0_pay4 (F := F))) (k0_pay6 (k0_pay2 x) (k0_pay3 x) (k0_pay4 (F := F))) (k0_pay7 (F := F))
      = blockStep^[13] x := rfl

end AnyInstance

/-! ## One step read at an index, at the extended reals -/

/-- xᵀx at (b, j, k): the sum over rows l of x(b, l, j)·x(b, l, k). -/
theorem gram_apply (x : FVec Ideal S128x64x64 .f32) (b : Fin 128) (j k : Fin 64) :
    matmul dot_S128x64x64_S128x64x64_S128x64x64_1_1_2_2_0_0 (some .fp32) x x (constant S128x64x64 .f32 0x00000000#32) (ix3 b j k)
      = gram (mat x b) j k := by
  refine (Cert.Lib.OneAxisDot.matmul_zero_apply_at dot_S128x64x64_S128x64x64_S128x64x64_1_1_2_2_0_0 64 rfl rfl (some .fp32) x x
    (ix3 b j k) (fun l => ix3 b l j) (fun l => ix3 b l k) ?_ ?_).trans rfl
  · intro l
    funext a
    apply Fin.ext
    match a with
    | ⟨0, _⟩ => rfl
    | ⟨1, _⟩ =>
      exact (DotDims.lhsIdx_val_of_single _ (cl := ⟨1, by decide⟩) rfl _ _).trans
        (contrEquiv1_symm_val dot_S128x64x64_S128x64x64_S128x64x64_1_1_2_2_0_0 64 rfl rfl l)
    | ⟨2, _⟩ => rfl
  · intro l
    funext a
    apply Fin.ext
    match a with
    | ⟨0, _⟩ => rfl
    | ⟨1, _⟩ =>
      exact (DotDims.rhsIdx_val_of_single _ (cr := ⟨1, by decide⟩) rfl _ _).trans
        (contrEquiv1_symm_val dot_S128x64x64_S128x64x64_S128x64x64_1_1_2_2_0_0 64 rfl rfl l)
    | ⟨2, _⟩ => rfl

/-- x·y at (b, i, k), for any second factor y: the sum over j of x(b, i, j)·y(b, j, k). -/
theorem times_apply (x y : FVec Ideal S128x64x64 .f32) (b : Fin 128) (i k : Fin 64) :
    matmul dot_S128x64x64_S128x64x64_S128x64x64_2_1_1_2_0_0 (some .fp32) x y (constant S128x64x64 .f32 0x00000000#32) (ix3 b i k)
      = ∑ j : Fin 64, x (ix3 b i j) * y (ix3 b j k) := by
  refine Cert.Lib.OneAxisDot.matmul_zero_apply_at dot_S128x64x64_S128x64x64_S128x64x64_2_1_1_2_0_0 64 rfl rfl (some .fp32) x y
    (ix3 b i k) (fun j => ix3 b i j) (fun j => ix3 b j k) ?_ ?_
  · intro j
    funext a
    apply Fin.ext
    match a with
    | ⟨0, _⟩ => rfl
    | ⟨1, _⟩ => rfl
    | ⟨2, _⟩ =>
      exact (DotDims.lhsIdx_val_of_single _ (cl := ⟨2, by decide⟩) rfl _ _).trans
        (contrEquiv1_symm_val dot_S128x64x64_S128x64x64_S128x64x64_2_1_1_2_0_0 64 rfl rfl j)
  · intro j
    funext a
    apply Fin.ext
    match a with
    | ⟨0, _⟩ => rfl
    | ⟨1, _⟩ =>
      exact (DotDims.rhsIdx_val_of_single _ (cr := ⟨1, by decide⟩) rfl _ _).trans
        (contrEquiv1_symm_val dot_S128x64x64_S128x64x64_S128x64x64_2_1_1_2_0_0 64 rfl rfl j)
    | ⟨2, _⟩ => rfl

/-- The two products of a step at (b, i, k): entry (i, k) of w·(wᵀw) for w the b-th matrix of the block. -/
theorem blockProducts_apply (x : FVec Ideal S128x64x64 .f32) (b : Fin 128) (i k : Fin 64) :
    blockProducts x (ix3 b i k) = timesGram (mat x b) i k :=
  (times_apply x _ b i k).trans
    (Finset.sum_congr rfl fun j _ => congrArg (fun g => x (ix3 b i j) * g) (gram_apply x b j k))

/-- One step of the body at (b, i, k) is the step of the b-th matrix at (i, k): the splatted scalars are the
    same two words, the products are `blockProducts_apply`, and the scalings and the subtraction act entry by
    entry. -/
theorem blockStep_apply (x : FVec Ideal S128x64x64 .f32) (b : Fin 128) (i k : Fin 64) :
    blockStep x (ix3 b i k) = step (mat x b) i k :=
  congrArg (fun g => threeHalves * x (ix3 b i k) - oneHalf * g) (blockProducts_apply x b i k)

/-- So the b-th matrix of the stepped block is the step of the b-th matrix. -/
theorem mat_blockStep (x : FVec Ideal S128x64x64 .f32) (b : Fin 128) : mat (blockStep x) b = step (mat x b) :=
  funext fun i => funext fun k => blockStep_apply x b i k

/-- And after n steps of the block, the b-th matrix is the n-th iterate of the b-th matrix. -/
theorem mat_iterate (n : Nat) (x : FVec Ideal S128x64x64 .f32) (b : Fin 128) :
    mat (blockStep^[n] x) b = step^[n] (mat x b) := by
  induction n generalizing x with
  | zero => rfl
  | succ n ih => rw [Function.iterate_succ_apply, ih, mat_blockStep, ← Function.iterate_succ_apply]

/-- The value the body stores, read at (b, i, k) of the block: entry (i, k) of the thirteenth iterate of the
    block's b-th matrix. -/
theorem payload_apply (x : FVec Ideal S128x64x64 .f32) (b : Fin 128) (i k : Fin 64) :
    k0_pay1 (k0_pay5 (k0_pay2 x) (k0_pay3 x) (k0_pay4 (F := Ideal))) (k0_pay6 (k0_pay2 x) (k0_pay3 x) (k0_pay4 (F := Ideal)))
        (k0_pay7 (F := Ideal)) (ix3 b i k)
      = (step^[13] (mat x b)) i k := by
  rw [payload_eq_iterate]
  exact congrFun (congrFun (mat_iterate 13 x b) i) k

/-- A BLOCK AGAINST THE STACK. Let X be a block of 128 matrices cut out of a stack W of 8192 along the batch
    axis: X(y) = W(e y), where e sends (b, i, k) of the block to (B b, i, k) of the stack, whatever the map B of
    batch numbers is. Then thirteen steps of the block, read at y, are thirteen steps of the stack read at e y:
    the step never mixes two matrices, so it does not matter which of them travel together. -/
theorem iterate_block (X : FVec Ideal S128x64x64 .f32) (W : FVec Ideal S8192x64x64 .f32)
    (e : S128x64x64.Idx → S8192x64x64.Idx) (B : Fin 128 → Fin 8192)
    (he : ∀ (b : Fin 128) (i k : Fin 64), e (ix3 b i k) = ix3 (B b) i k)
    (hX : ∀ y, X y = W (e y)) (y : S128x64x64.Idx) :
    (blockStep^[13] X) y = iterated 13 W (e y) := by
  obtain ⟨b, i, k, rfl⟩ : ∃ (b : Fin 128) (i k : Fin 64), y = ix3 b i k := ⟨y 0, y 1, y 2, eq_ix3 y⟩
  have hmat : mat X b = mat W (B b) :=
    funext fun i' => funext fun k' => (hX (ix3 b i' k')).trans (congrArg W (he b i' k'))
  rw [he, iterated_ix3, ← hmat]
  exact congrFun (congrFun (mat_iterate 13 X b) i) k

end Cert.KernelIdeal.BlockStep

end
-- ==== Proof.KernelValue.lean ====
/-
  The kernel's result array is the whole stack after thirteen Björck steps.

  The grid has 64 points. Point t stages matrices 128·t … 128·t + 127 of the argument stack — one block —, the body
  replaces the block by its thirteenth iterate, and the block is written back to the same place in the result.
  Because a step acts on every matrix by itself, thirteen steps of a block are the block of thirteen steps of the
  stack; and the 64 blocks tile the batch axis, so every entry of the result is written by exactly the point
  whose number is its batch number divided by 128. Hence the result array is the iterated stack.
-/
import proofs.«105272_j45122926411979_2_alg».proof.Proof.Gen.KernelIdeal.Value
import proofs.«105272_j45122926411979_2_alg».proof.Proof.BlockStep

set_option maxRecDepth 16384

noncomputable section

namespace Cert.KernelIdeal.WholeValue

open Cert.KernelIdeal Cert.KernelIdeal.Gen Idealize.ShloMosaic Idealize.ShloMosaic.TcCoe Idealize.SL.Sem
open Idealize.ShloMosaic.Pipeline (Dat)
open Idealize.ShloMosaic.ValueIdx Cert.Bjorck Cert.KernelIdeal.BlockStep

variable (m : (ℓ : Loc nD τ sig) → Buf (Elt Ideal) ℓ) (ρ : Dev nD → PrngReg)

/-- The corner of the one load and the one store is the block's origin. -/
theorem origin_zero : (![0, 0, 0] : Fin 3 → Nat) = fun _ => 0 := funext fun a => by fin_cases a <;> rfl

/-- The two index maps, decided over the 64 grid points: both windows take block (t, 0, 0) at point t. -/
theorem index_maps : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- WHAT POINT t WRITES BACK is block t of the iterated stack. -/
theorem flushed_eq (c : Dev nD) (t : Fin cfg0.N) :
    (dats m 0 c).flushed 1 t = ((cfg0.win 1).blk t).view.read (Elt Ideal) (iterated 13 (V m c main_arg0)) := by
  rw [Cert.KernelIdeal.Value.flushed1]
  unfold out0_1
  rw [View.canon_unit_zero origin_zero]
  simp only [View.ld_unit_zero (S := S128x64x64) origin_zero]
  rw [payload_eq_iterate]
  obtain ⟨e0, e1, e2, e3, e4, e5⟩ := index_maps t
  have ht : t.val < 64 := t.isLt
  funext y
  refine iterate_block (iblk m c 0 t) (V m c main_arg0) (fun y => ((cfg0.win 1).blk t).view.emb y)
    (fun b => ⟨t.val * 128 + b.val, by have := b.isLt; omega⟩) ?_ ?_ y
  · intro b i k
    funext a
    apply Fin.ext
    match a with
    | ⟨0, _⟩ => show win0_1.index t (0 : Fin 3) * 128 + 1 * b.val = t.val * 128 + b.val; omega
    | ⟨1, _⟩ => show win0_1.index t (1 : Fin 3) * 64 + 1 * i.val = i.val; omega
    | ⟨2, _⟩ => show win0_1.index t (2 : Fin 3) * 64 + 1 * k.val = k.val; omega
  · intro y'
    show V m c main_arg0 (((cfg0.win 0).blk t).view.emb y') = V m c main_arg0 (((cfg0.win 1).blk t).view.emb y')
    refine congrArg (V m c main_arg0) (funext fun a => Fin.ext ?_)
    match a with
    | ⟨0, _⟩ => show win0_0.index t (0 : Fin 3) * 128 + 1 * (y' 0).val = win0_1.index t (0 : Fin 3) * 128 + 1 * (y' 0).val; omega
    | ⟨1, _⟩ => show win0_0.index t (1 : Fin 3) * 64 + 1 * (y' 1).val = win0_1.index t (1 : Fin 3) * 64 + 1 * (y' 1).val; omega
    | ⟨2, _⟩ => show win0_0.index t (2 : Fin 3) * 64 + 1 * (y' 2).val = win0_1.index t (2 : Fin 3) * 64 + 1 * (y' 2).val; omega

/-- An index of the result is in point t's block iff each coordinate is in the block's range on its axis. -/
theorem mem_block (t : Fin cfg0.N) (i : S8192x64x64.Idx) :
    i ∈ ((cfg0.win 1).blk t).view.set ↔ ∀ a : Fin 3, win0_1.index t a * S128x64x64.size a ≤ (i a).val
      ∧ (i a).val < win0_1.index t a * S128x64x64.size a + S128x64x64.size a := by
  show i ∈ ((View.whole main_v0).slice (win0_1.rect t)).set ↔ _
  rw [View.set_slice_whole, Rect.mem_set_unit]
  exact Iff.rfl

/-- THE BLOCKS TILE THE RESULT: entry (b, i, k) lies in the block of point b / 128, which writes back. -/
theorem covered (i : S8192x64x64.Idx) :
    ∃ t : Fin cfg0.N, (cfg0.win 1).flush t = true ∧ i ∈ ((cfg0.win 1).blk t).view.set := by
  have h0 : (i 0).val < 8192 := (i 0).isLt
  have h1 : (i 1).val < 64 := (i 1).isLt
  have h2 : (i 2).val < 64 := (i 2).isLt
  let t : Fin cfg0.N := ⟨(i 0).val / 128, by show (i 0).val / 128 < 64; omega⟩
  obtain ⟨-, -, -, e3, e4, e5⟩ := index_maps t
  have ht : t.val = (i 0).val / 128 := rfl
  refine ⟨t, flush0_1 t, ?_⟩
  rw [mem_block]
  intro a
  match a with
  | ⟨0, _⟩ => show win0_1.index t (0 : Fin 3) * 128 ≤ (i 0).val ∧ (i 0).val < win0_1.index t (0 : Fin 3) * 128 + 128; omega
  | ⟨1, _⟩ => show win0_1.index t (1 : Fin 3) * 64 ≤ (i 1).val ∧ (i 1).val < win0_1.index t (1 : Fin 3) * 64 + 64; omega
  | ⟨2, _⟩ => show win0_1.index t (2 : Fin 3) * 64 ≤ (i 2).val ∧ (i 2).val < win0_1.index t (2 : Fin 3) * 64 + 64; omega

/-- THE RESULT ARRAY after the run is the argument stack, as launched, iterated thirteen times. -/
theorem final (c : Dev nD) :
    (dats m 0 c).arrAt 1 cfg0.N = iterated 13 (m ((c : Thread nD τ).loc main_arg0)) :=
  (dats m 0 c).arrAt_eq_of_cover 1 (iterated 13 (V m c main_arg0)) (fun t _ => flushed_eq m c t) covered

/-- The kernel's run with its result named: the iterated stack, and the argument unchanged. -/
theorem run : θ_run defs (onTc (τ := τ) (main (F := Ideal))) ⟨m, fun _ => 0, ρ⟩ fun r => ∀ c : Dev nD,
      r.2.mem ((c : Thread nD τ).loc main_v0) = iterated 13 (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.WholeValue

end
-- ==== Proof.HostStep.lean ====
/-
  The reference program on the whole stack is thirteen Björck steps of the stack.

  Each of its thirteen stretches of eight host operations transposes the two matrix axes of the current stack,
  multiplies the transpose with the stack (contracting the transpose's last axis with the stack's row axis:
  that is wᵀw, batch by batch), multiplies the stack with that, scales the stack by a broadcast 3/2 and the
  product by a broadcast 1/2, and subtracts. Written as one function of the stack that is a single step, and
  the program's result is its thirteenth iterate of the argument. Read at an index (b, i, k) at the extended
  reals, one such step is the mathematical step of matrix b at entry (i, k).
-/
import proofs.«105272_j45122926411979_2_alg».proof.Proof.Gen.ReferenceIdeal.Run
import proofs.«105272_j45122926411979_2_alg».proof.Proof.BjorckSpec
import proofs.«105272_j45122926411979_2_alg».proof.Proof.LibOneAxisDot
import Idealize.ShloMosaic.Lib.ValueLayout

noncomputable section

open scoped BigOperators

namespace Cert.ReferenceIdeal.HostStep

open Cert.ReferenceIdeal Cert.ReferenceIdeal.Gen Idealize.ShloMosaic Idealize.ShloMosaic.TcCoe Idealize.SL.Sem
open Idealize.ShloMosaic.ValueIdx Idealize.ShloMosaic.StableHlo Cert.Bjorck

/-! ## One step of the program, as a function of the stack -/

section AnyInstance

variable {F : FTy → Type} [FloatOps F]

/-- One step of the reference on the whole stack. -/
def hostStep (a : FVec F S8192x64x64 .f32) : FVec F S8192x64x64 .f32 :=
  subf (mulf (broadcastInDim S8192x64x64 ![] bcast_S_S8192x64x64 (constant S_ .f32 0x3FC00000#32)) a)
    (mulf (broadcastInDim S8192x64x64 ![] bcast_S_S8192x64x64 (constant S_ .f32 0x3F000000#32))
      (Host.dotGeneral dot_S8192x64x64_S8192x64x64_S8192x64x64_2_1_1_2_0_0 none a
        (Host.dotGeneral dot_S8192x64x64_S8192x64x64_S8192x64x64_2_1_1_2_0_0 none
          (transpose S8192x64x64 [0, 2, 1] a transposes_S8192x64x64_S8192x64x64_0_2_1) a)))

/-- The program's run, with its result named as the thirteenth iterate of the step of the argument as launched:
    the generated run states the same term stage by stage, each stage one step of the stage before. -/
theorem run_iterate (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v103) = hostStep^[13] (m ((c.tc : Thread nD τ).loc main_arg0))
      ∧ r.2.mem ((c.tc : Thread nD τ).loc main_arg0) = m ((c.tc : Thread nD τ).loc main_arg0) :=
  Cert.ReferenceIdeal.Value.run m ρ

end AnyInstance

/-! ## One step read at an index, at the extended reals -/

/-- (aᵀ)·a at (b, j, k), the transpose taken on the two matrix axes: the sum over rows l of a(b, l, j)·a(b, l, k). -/
theorem gram_apply (a : FVec Ideal S8192x64x64 .f32) (b : Fin 8192) (j k : Fin 64) :
    Host.dotGeneral dot_S8192x64x64_S8192x64x64_S8192x64x64_2_1_1_2_0_0 none
        (transpose S8192x64x64 [0, 2, 1] a transposes_S8192x64x64_S8192x64x64_0_2_1) a (ix3 b j k)
      = gram (mat a b) j k := by
  refine (Cert.Lib.OneAxisDot.dotGeneral_apply_at dot_S8192x64x64_S8192x64x64_S8192x64x64_2_1_1_2_0_0 64 rfl rfl none
    (transpose S8192x64x64 [0, 2, 1] a transposes_S8192x64x64_S8192x64x64_0_2_1) a
    (ix3 b j k) (fun l => ix3 b j l) (fun l => ix3 b l k) ?_ ?_).trans ?_
  · intro l
    funext c
    apply Fin.ext
    match c with
    | ⟨0, _⟩ => rfl
    | ⟨1, _⟩ => rfl
    | ⟨2, _⟩ =>
      exact (DotDims.lhsIdx_val_of_single _ (cl := ⟨2, by decide⟩) rfl _ _).trans
        (contrEquiv1_symm_val dot_S8192x64x64_S8192x64x64_S8192x64x64_2_1_1_2_0_0 64 rfl rfl l)
  · intro l
    funext c
    apply Fin.ext
    match c with
    | ⟨0, _⟩ => rfl
    | ⟨1, _⟩ =>
      exact (DotDims.rhsIdx_val_of_single _ (cr := ⟨1, by decide⟩) rfl _ _).trans
        (contrEquiv1_symm_val dot_S8192x64x64_S8192x64x64_S8192x64x64_2_1_1_2_0_0 64 rfl rfl l)
    | ⟨2, _⟩ => rfl
  · exact Finset.sum_congr rfl fun l _ =>
      congrArg (fun g => g * a (ix3 b l k))
        (transpose_ix3_021_apply a transposes_S8192x64x64_S8192x64x64_0_2_1 b j l)

/-- a·y at (b, i, k), for any second factor y: the sum over j of a(b, i, j)·y(b, j, k). -/
theorem times_apply (a y : FVec Ideal S8192x64x64 .f32) (b : Fin 8192) (i k : Fin 64) :
    Host.dotGeneral dot_S8192x64x64_S8192x64x64_S8192x64x64_2_1_1_2_0_0 none a y (ix3 b i k)
      = ∑ j : Fin 64, a (ix3 b i j) * y (ix3 b j k) := by
  refine Cert.Lib.OneAxisDot.dotGeneral_apply_at dot_S8192x64x64_S8192x64x64_S8192x64x64_2_1_1_2_0_0 64 rfl rfl none a y
    (ix3 b i k) (fun j => ix3 b i j) (fun j => ix3 b j k) ?_ ?_
  · intro j
    funext c
    apply Fin.ext
    match c with
    | ⟨0, _⟩ => rfl
    | ⟨1, _⟩ => rfl
    | ⟨2, _⟩ =>
      exact (DotDims.lhsIdx_val_of_single _ (cl := ⟨2, by decide⟩) rfl _ _).trans
        (contrEquiv1_symm_val dot_S8192x64x64_S8192x64x64_S8192x64x64_2_1_1_2_0_0 64 rfl rfl j)
  · intro j
    funext c
    apply Fin.ext
    match c with
    | ⟨0, _⟩ => rfl
    | ⟨1, _⟩ =>
      exact (DotDims.rhsIdx_val_of_single _ (cr := ⟨1, by decide⟩) rfl _ _).trans
        (contrEquiv1_symm_val dot_S8192x64x64_S8192x64x64_S8192x64x64_2_1_1_2_0_0 64 rfl rfl j)
    | ⟨2, _⟩ => rfl

/-- One step of the reference at (b, i, k) is the step of the b-th matrix at (i, k): a scalar constant broadcast
    over the stack reads as that scalar everywhere, the products are the two lemmas above, and the scalings and the
    subtraction act entry by entry. -/
theorem hostStep_apply (a : FVec Ideal S8192x64x64 .f32) (b : Fin 8192) (i k : Fin 64) :
    hostStep a (ix3 b i k) = step (mat a b) i k :=
  congrArg (fun g => threeHalves * a (ix3 b i k) - oneHalf * g)
    ((times_apply a _ b i k).trans
      (Finset.sum_congr rfl fun j _ => congrArg (fun g => a (ix3 b i j) * g) (gram_apply a b j k)))

/-- So the b-th matrix of the stepped stack is the step of the b-th matrix. -/
theorem mat_hostStep (a : FVec Ideal S8192x64x64 .f32) (b : Fin 8192) : mat (hostStep a) b = step (mat a b) :=
  funext fun i => funext fun k => hostStep_apply a b i k

/-- And after n steps of the stack, the b-th matrix is the n-th iterate of the b-th matrix. -/
theorem mat_iterate (n : Nat) (a : FVec Ideal S8192x64x64 .f32) (b : Fin 8192) :
    mat (hostStep^[n] a) b = step^[n] (mat a b) := by
  induction n generalizing a with
  | zero => rfl
  | succ n ih => rw [Function.iterate_succ_apply, ih, mat_hostStep, ← Function.iterate_succ_apply]

/-- The reference's result is the stack iterated thirteen times, matrix by matrix. -/
theorem iterate_eq (a : FVec Ideal S8192x64x64 .f32) : hostStep^[13] a = iterated 13 a := by
  funext j
  obtain ⟨b, i, k, rfl⟩ : ∃ (b : Fin 8192) (i k : Fin 64), j = ix3 b i k := ⟨j 0, j 1, j 2, eq_ix3 j⟩
  exact congrFun (congrFun (mat_iterate 13 a b) i) k

end Cert.ReferenceIdeal.HostStep

end
-- ==== Proof.lean ====
/-
  A Pallas kernel for batched Björck orthogonalisation against its plain jnp reference, equal at the extended reals.

  Both programs take a stack W of 8192 matrices of size 64 × 64 and apply, thirteen times, the step
      w ↦ (3/2)·w − (1/2)·w·(wᵀw)
  to every matrix of the stack. The reference does it on the whole stack with host operations (a transpose of
  the two matrix axes, two batched products, two scalings by broadcast constants, a subtraction). The kernel
  walks a grid of 64 points, stages 128 matrices at each, runs the thirteen steps unrolled on that block with the
  matrix unit (the first product contracts the row axis of the block with itself, so no transpose is ever
  formed), and writes the block back to the same place of the result.

  At the extended reals the two are one function of W, with no hypothesis on its entries:
    * each product contracts a single axis of extent 64, and both programs add up the same 64 terms
      w(l, j)·w(l, k), resp. w(i, j)·g(j, k) — forming wᵀ first and contracting its last axis is a renaming of the
      index of summation, not a rearrangement of the sum;
    * the scalars are the same two f32 words on both sides, applied in the same order;
    * the step acts on each matrix by itself, so iterating a block of the stack gives the block of the iterated
      stack, and the 64 blocks tile the batch axis.
  No distributive law, no cancellation and no exchange of sums is used, which is why finiteness of the input is
  never called on: the precondition is carried but not opened.

  The modules: BjorckSpec states the step and its iterate on a stack; BlockStep reads the kernel body on a block
  as thirteen steps; KernelValue passes from the blocks to the result array; HostStep reads the reference's run as
  thirteen steps of the stack; LibOneAxisDot reads a product with one contracted axis at an index. Below, the
  three runs terminate without fault and keep the argument (the kernel's two runs by their generated frames, the
  reference's by its run); the idealised kernel is the kernel's own text read at the extended reals, so there is
  nothing to preserve beyond that; and the two idealised runs end at the same array.
-/
import proofs.«105272_j45122926411979_2_alg».proof.Defs
import proofs.«105272_j45122926411979_2_alg».proof.Proof.Gen.Kernel
import proofs.«105272_j45122926411979_2_alg».proof.Proof.Gen.Kernel.Frame
import proofs.«105272_j45122926411979_2_alg».proof.Proof.Gen.KernelIdeal
import proofs.«105272_j45122926411979_2_alg».proof.Proof.Gen.KernelIdeal.Frame
import proofs.«105272_j45122926411979_2_alg».proof.Proof.Gen.KernelIdeal.Value
import proofs.«105272_j45122926411979_2_alg».proof.Proof.Gen.ReferenceIdeal
import proofs.«105272_j45122926411979_2_alg».proof.Proof.Gen.ReferenceIdeal.Run
import proofs.«105272_j45122926411979_2_alg».proof.Proof.Gen.Pre_finite_inputs
import proofs.«105272_j45122926411979_2_alg».proof.Proof.KernelValue
import proofs.«105272_j45122926411979_2_alg».proof.Proof.HostStep
import Idealize.ShloMosaic.Adequacy
import Idealize.ShloMosaic.Init

noncomputable section

namespace Cert.Proof

open Idealize.ShloMosaic Idealize.ShloMosaic.TcCoe Idealize.SL.Sem Cert.Bjorck

/-- The kernel as printed runs to the end without fault and leaves the stack it was given unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- And so does the reference: its run, with the statement about the result dropped. -/
theorem frame_referenceIdeal : Cert.frame_ReferenceIdeal := fun m ρ _ =>
  (θ_run Cert.ReferenceIdeal.defs _ _).mono (fun _ h c => (h c).2)
    (Cert.ReferenceIdeal.HostStep.run_iterate (F := Ideal) m ρ)

/-- From memories that agree on the stack, the kernel's result array and the reference's are the same array: the
    stack iterated thirteen times, matrix by matrix. -/
theorem algebraic : Cert.algebraic_KernelIdeal_ReferenceIdeal := by
  intro m ρ m' ρ' _ hagree
  refine ⟨fun c => iterated 13 (m ((c.tc : Thread Cert.KernelIdeal.nD Cert.KernelIdeal.τ).loc Cert.KernelIdeal.main_arg0)),
    Cert.KernelIdeal.WholeValue.run m ρ, ?_⟩
  refine (θ_run Cert.ReferenceIdeal.defs _ _).mono (fun _ h c => ⟨(h c).1.trans ?_, (h c).2⟩)
    (Cert.ReferenceIdeal.HostStep.run_iterate (F := Ideal) m' ρ')
  rw [Cert.ReferenceIdeal.HostStep.iterate_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
